-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S5000x128 : Shape := ⟨2, ![5000, 128]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩

abbrev nBuf : Space → Nat
  | .hbm => 62
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x600000, .i32⟩
  | .hbm, ⟨6, _⟩ => ⟨S600000, .i32⟩
  | .hbm, ⟨7, _⟩ => ⟨S700000, .i32⟩
  | .hbm, ⟨8, _⟩ => ⟨S1x600000, .i32⟩
  | .hbm, ⟨9, _⟩ => ⟨S600000, .i32⟩
  | .hbm, ⟨10, _⟩ => ⟨S700000, .i32⟩
  | .hbm, ⟨11, _⟩ => ⟨S100000x128, .f32⟩
  | .hbm, ⟨12, _⟩ => ⟨S_, .f32⟩
  | .hbm, ⟨13, _⟩ => ⟨S700000, .f32⟩
  | .hbm, ⟨14, _⟩ => ⟨S_, .f32⟩
  | .hbm, ⟨15, _⟩ => ⟨S100000, .f32⟩
  | .hbm, ⟨16, _⟩ => ⟨S700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S700000, .i32⟩
  | .hbm, ⟨28, _⟩ => ⟨S700000, .i1⟩
  | .hbm, ⟨29, _⟩ => ⟨S_, .i32⟩
  | .hbm, ⟨30, _⟩ => ⟨S700000, .i32⟩
  | .hbm, ⟨31, _⟩ => ⟨S700000, .i32⟩
  | .hbm, ⟨32, _⟩ => ⟨S700000, .i32⟩
  | .hbm, ⟨33, _⟩ => ⟨S700000x1, .i32⟩
  | .hbm, ⟨34, _⟩ => ⟨S700000, .f32⟩
  | .hbm, ⟨35, _⟩ => ⟨S_, .i32⟩
  | .hbm, ⟨36, _⟩ => ⟨S700000, .i32⟩
  | .hbm, ⟨37, _⟩ => ⟨S700000, .i1⟩
  | .hbm, ⟨38, _⟩ => ⟨S_, .i32⟩
  | .hbm, ⟨39, _⟩ => ⟨S700000, .i32⟩
  | .hbm, ⟨40, _⟩ => ⟨S700000, .i32⟩
  | .hbm, ⟨41, _⟩ => ⟨S700000, .i32⟩
  | .hbm, ⟨42, _⟩ => ⟨S700000x1, .i32⟩
  | .hbm, ⟨43, _⟩ => ⟨S700000, .f32⟩
  | .hbm, ⟨44, _⟩ => ⟨S700000, .f32⟩
  | .hbm, ⟨45, _⟩ => ⟨S_, .i32⟩
  | .hbm, ⟨46, _⟩ => ⟨S700000, .i32⟩
  | .hbm, ⟨47, _⟩ => ⟨S700000, .i1⟩
  | .hbm, ⟨48, _⟩ => ⟨S_, .i32⟩
  | .hbm, ⟨49, _⟩ => ⟨S700000, .i32⟩
  | .hbm, ⟨50, _⟩ => ⟨S700000, .i32⟩
  | .hbm, ⟨51, _⟩ => ⟨S700000, .i32⟩
  | .hbm, ⟨52, _⟩ => ⟨S700000x1, .i32⟩
  | .hbm, ⟨53, _⟩ => ⟨S700000x128, .f32⟩
  | .hbm, ⟨54, _⟩ => ⟨S700000x1, .f32⟩
  | .hbm, ⟨55, _⟩ => ⟨S700000x128, .f32⟩
  | .hbm, ⟨56, _⟩ => ⟨S700000x128, .f32⟩
  | .hbm, ⟨57, _⟩ => ⟨S_, .f32⟩
  | .hbm, ⟨58, _⟩ => ⟨S100000x128, .f32⟩
  | .hbm, ⟨59, _⟩ => ⟨S700000x1, .i32⟩
  | .hbm, ⟨60, _⟩ => ⟨S100000x128, .f32⟩
  | .hbm, ⟨61, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  dot_S5000x128_S128x128_S5000x128_1_1_0_0_n_n_wf : DotDims.WF S5000x128 S128x128 S5000x128 [1] [1] [0] [0] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x600000, .i32⟩
  | .hbm, ⟨6, _⟩ => ⟨S600000, .i32⟩
  | .hbm, ⟨7, _⟩ => ⟨S700000, .i32⟩
  | .hbm, ⟨8, _⟩ => ⟨S1x600000, .i32⟩
  | .hbm, ⟨9, _⟩ => ⟨S600000, .i32⟩
  | .hbm, ⟨10, _⟩ => ⟨S700000, .i32⟩
  | .hbm, ⟨11, _⟩ => ⟨S128x128, .f32⟩
  | .hbm, ⟨12, _⟩ => ⟨S100000x128, .f32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S700000, .i32⟩
  | .hbm, ⟨29, _⟩ => ⟨S700000, .i1⟩
  | .hbm, ⟨30, _⟩ => ⟨S_, .i32⟩
  | .hbm, ⟨31, _⟩ => ⟨S700000, .i32⟩
  | .hbm, ⟨32, _⟩ => ⟨S700000, .i32⟩
  | .hbm, ⟨33, _⟩ => ⟨S700000, .i32⟩
  | .hbm, ⟨34, _⟩ => ⟨S700000x1, .i32⟩
  | .hbm, ⟨35, _⟩ => ⟨S700000, .f32⟩
  | .hbm, ⟨36, _⟩ => ⟨S_, .i32⟩
  | .hbm, ⟨37, _⟩ => ⟨S700000, .i32⟩
  | .hbm, ⟨38, _⟩ => ⟨S700000, .i1⟩
  | .hbm, ⟨39, _⟩ => ⟨S_, .i32⟩
  | .hbm, ⟨40, _⟩ => ⟨S700000, .i32⟩
  | .hbm, ⟨41, _⟩ => ⟨S700000, .i32⟩
  | .hbm, ⟨42, _⟩ => ⟨S700000, .i32⟩
  | .hbm, ⟨43, _⟩ => ⟨S700000x1, .i32⟩
  | .hbm, ⟨44, _⟩ => ⟨S700000, .f32⟩
  | .hbm, ⟨45, _⟩ => ⟨S700000, .f32⟩
  | .hbm, ⟨46, _⟩ => ⟨S_, .i32⟩
  | .hbm, ⟨47, _⟩ => ⟨S700000, .i32⟩
  | .hbm, ⟨48, _⟩ => ⟨S700000, .i1⟩
  | .hbm, ⟨49, _⟩ => ⟨S_, .i32⟩
  | .hbm, ⟨50, _⟩ => ⟨S700000, .i32⟩
  | .hbm, ⟨51, _⟩ => ⟨S700000, .i32⟩
  | .hbm, ⟨52, _⟩ => ⟨S700000, .i32⟩
  | .hbm, ⟨53, _⟩ => ⟨S700000x1, .i32⟩
  | .hbm, ⟨54, _⟩ => ⟨S700000x128, .f32⟩
  | .hbm, ⟨55, _⟩ => ⟨S700000x1, .f32⟩
  | .hbm, ⟨56, _⟩ => ⟨S700000x128, .f32⟩
  | .hbm, ⟨57, _⟩ => ⟨S700000x128, .f32⟩
  | .hbm, ⟨58, _⟩ => ⟨S_, .f32⟩
  | .hbm, ⟨59, _⟩ => ⟨S100000x128, .f32⟩
  | .hbm, ⟨60, _⟩ => ⟨S700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  transposes_S128x128_S128x128_1_0 : S128x128.Transposes [1, 0] S128x128
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.LibDotReads.lean ====
/- Contractions and two column layouts read at coordinates, on the extended reals, for any extents.
   A matrix product into the zero accumulator, read at (p, c), is one sum over the contraction coordinate k:
   of left(k, p) · right(c, k) when the left operand is contracted on its first axis and the right on its last;
   of left(p, k) · right(c, k) when both are contracted on their last axis. The host's product with the plain
   dimension numbers (rows × contraction by contraction × columns), which has no accumulator, is the sum of
   left(p, k) · right(k, c). A vector of a entries cast to an [a, 1] column reads its entry i at (i, 0), and a
   [1, 1] value broadcast along a row of b entries reads its one entry everywhere. Nothing here depends on a
   particular program: a printed record with the same axis lists is the record used here by `rfl`. -/
import Idealize.ShloMosaic.PureOps.Ideal
import Idealize.ShloMosaic.PureOps.Ideal.Laws
import Idealize.ShloMosaic.Lib.ValueIdx
import Idealize.ShloMosaic.Lib.Pipeline.Value

noncomputable section

open scoped BigOperators

open Idealize.ShloMosaic Idealize.ShloMosaic.ValueIdx

namespace Cert.Lib.DotReads

/-- The dimension numbers of a [K, M] matrix contracted on its FIRST axis with an [N, K] matrix contracted on its
    LAST axis, giving [M, N]: result (p, c) pairs the left operand's column p with the right operand's row c. -/
def firstLast (M K N : Nat) : DotDims ⟨2, ![K, M]⟩ ⟨2, ![N, K]⟩ ⟨2, ![M, N]⟩ where
  lhsContracting := [0]
  rhsContracting := [1]
  lhsNonContracting := [1]
  rhsNonContracting := [0]
  lhsBatch := []
  rhsBatch := []
  wf := ⟨rfl, by simp, rfl, by simp, by simp, by simp, by simpa [List.finRange] using List.Perm.swap 0 1 [],
    by simp [List.finRange], rfl, Nat.two_pos, fun b => by fin_cases b <;> rfl⟩

/-- Left contracted on its first axis, right on its last, into the zero accumulator, at (p, c): the sum over k of
    left(k, p) · right(c, k). -/
theorem firstLast_matmul_zero_apply {M K N : ℕ} {φ₁ φ₂ : FTy} (l : FVec Ideal ⟨2, ![K, M]⟩ φ₁) (r : FVec Ideal ⟨2, ![N, K]⟩ φ₂)
    (p : Fin M) (c : Fin N) :
    FloatOps.matmul (firstLast M K N) none l r (constant (F := Ideal) ⟨2, ![M, N]⟩ .f32 0x00000000#32) (ix2 p c)
      = ∑ k : Fin K, l (ix2 k p) * r (ix2 c k) := by
  rw [Ideal.matmul_constant_zero_apply, ← Equiv.sum_comp (contrEquiv1 (firstLast M K N) K rfl rfl).symm]
  refine Finset.sum_congr rfl fun k _ => ?_
  have hk := contrEquiv1_symm_val (firstLast M K N) K rfl rfl k
  have el : (firstLast M K N).lhsIdx (ix2 p c) ((contrEquiv1 (firstLast M K N) K rfl rfl).symm k) = ix2 k p :=
    funext fun a => Fin.ext (by
      match a with
      | ⟨0, _⟩ => exact ((firstLast M K N).lhsIdx_val_of_single rfl _ _).trans hk
      | ⟨1, _⟩ => rfl)
  have er : (firstLast M K N).rhsIdx (ix2 p c) ((contrEquiv1 (firstLast M K N) K rfl rfl).symm k) = ix2 c k :=
    funext fun a => Fin.ext (by
      match a with
      | ⟨0, _⟩ => rfl
      | ⟨1, _⟩ => exact ((firstLast M K N).rhsIdx_val_of_single rfl _ _).trans hk)
  rw [el, er]

/-- Both operands contracted on their last axis, into the zero accumulator, at (p, c): the sum over k of
    left(p, k) · right(c, k). -/
theorem lastLast_matmul_zero_apply {M K N : ℕ} {φ₁ φ₂ : FTy} (l : FVec Ideal ⟨2, ![M, K]⟩ φ₁) (r : FVec Ideal ⟨2, ![N, K]⟩ φ₂)
    (p : Fin M) (c : Fin N) :
    FloatOps.matmul (DotDims.transposedRhs M K N) none l r (constant (F := Ideal) ⟨2, ![M, N]⟩ .f32 0x00000000#32) (ix2 p c)
      = ∑ k : Fin K, l (ix2 p k) * r (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p c) ((contrEquiv1 (DotDims.transposedRhs M K N) K rfl rfl).symm k) = ix2 p k :=
    funext fun a => Fin.ext (by
      match a with
      | ⟨0, _⟩ => rfl
      | ⟨1, _⟩ => exact ((DotDims.transposedRhs M K N).lhsIdx_val_of_single rfl _ _).trans hk)
  have er : (DotDims.transposedRhs M K N).rhsIdx (ix2 p c) ((contrEquiv1 (DotDims.transposedRhs M K N) K rfl rfl).symm k) = ix2 c k :=
    funext fun a => Fin.ext (by
      match a with
      | ⟨0, _⟩ => rfl
      | ⟨1, _⟩ => exact ((DotDims.transposedRhs M K N).rhsIdx_val_of_single rfl _ _).trans hk)
  rw [el, er]

/-- The host's product with the plain dimension numbers, at (p, c): the sum over k of left(p, k) · right(k, c). -/
theorem plain_dotGeneral_apply {M K N : ℕ} {φ₁ φ₂ : FTy} (sched : HostSchedule) (l : FVec Ideal ⟨2, ![M, K]⟩ φ₁)
    (r : FVec Ideal ⟨2, ![K, N]⟩ φ₂) (p : Fin M) (c : Fin N) :
    FloatOps.dotGeneral (DotDims.plain M K N) none sched l r (ix2 p c) = ∑ k : Fin K, l (ix2 p k) * r (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A vector of a entries cast to an [a, 1] column reads, at (i, u), the vector's entry i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A [1, 1] value broadcast along a row of b entries reads its one entry at every (u, c). -/
theorem broadcastTo_11_1b_apply {α : Type} {b : ℕ} (v : (⟨2, ![1, 1]⟩ : Shape).Idx → α)
    (h : (⟨2, ![1, 1]⟩ : Shape).Broadcasts ⟨2, ![1, b]⟩) (u : Fin 1) (c : Fin b) :
    broadcastTo ⟨2, ![1, b]⟩ v h (ix2 u c) = v (ix2 (0 : Fin 1) (0 : Fin 1)) := by
  refine broadcastTo_apply v h (ix2 u c) (ix2 (0 : Fin 1) (0 : Fin 1)) fun ax => ?_
  match ax with
  | ⟨0, _⟩ => rfl
  | ⟨1, _⟩ => rfl

end Cert.Lib.DotReads

end
-- ==== Proof.BlockPayloads.lean ====
/- What the two kernel bodies compute on one block of 5000 nodes, read at coordinates on the extended reals.
   The first body multiplies the block of node features by the whole weight matrix, both contracted on their
   feature axis (the narrowing of both operands to a shorter float format is the identity here): entry (p, q) is
   the sum over k of x(p, k) · w(q, k). The second adds the bias row to the block of aggregated messages, clips at
   zero from below and adds the block of node features: entry (p, q) is x(p, q) + max(a(p, q) + b(q), 0). -/
import proofs.«133759_j31138512896565_1_alg».proof.Proof.Gen.KernelIdeal.Skeleton
import proofs.«133759_j31138512896565_1_alg».proof.Proof.LibDotReads
import Idealize.ShloMosaic.Lib.ValueLayout
import Idealize.ShloMosaic.Lib.Pipeline.Value

noncomputable section

open scoped BigOperators

open Idealize.ShloMosaic Idealize.ShloMosaic.ValueIdx Cert.KernelIdeal Cert.KernelIdeal.Gen

namespace Cert.KernelIdeal.Blocks

/-- The matrix product of a block of node features with the weight matrix, at (p, q): the sum over the input
    features k of x(p, k) · w(q, k). -/
theorem matmulBlock_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 q k) := by
  unfold k0_pay1
  exact Cert.Lib.DotReads.lastLast_matmul_zero_apply (M := 5000) (K := 128) (N := 128) x0 x1 p q

/-- The epilogue on a block, at (p, q): x(p, q) + max(a(p, q) + b(q), 0), where a is the block of aggregated
    messages, b the bias and x the block of node features. -/
theorem epilogueBlock_apply (a : Vec Ideal S5000x128 .f32) (b : Vec Ideal S128 .f32) (x : Vec Ideal S5000x128 .f32)
    (p : Fin 5000) (q : Fin 128) :
    k1_pay1 (F := Ideal) a b x (ix2 p q)
      = x (ix2 p q) + max (a (ix2 p q) + b (ix1 q)) (Ideal.ofBits .f32 0x00000000#32) := by
  unfold k1_pay1
  show x (ix2 p q) + max (shapeCast S5000x128 a shapeCasts_S5000x128_S5000x128 (ix2 p q)
      + broadcastTo S5000x128 (shapeCast S1x128 b shapeCasts_S128_S1x128) broadcasts_S1x128_S5000x128 (ix2 p q))
      (Ideal.ofBits .f32 0x00000000#32) = _
  rw [shapeCast_self, broadcastTo_1b_ab_apply, shapeCast_a_1a_apply]

/-- The same at any index of the block, its two coordinates read off the index. -/
theorem matmulBlock_at (x0 : Vec Ideal S5000x128 .f32) (x1 : Vec Ideal S128x128 .f32) (y : S5000x128.Idx) :
    k0_pay1 (F := Ideal) x0 x1 y
      = ∑ k : Fin 128, x0 (ix2 (⟨(y 0).val, (y 0).isLt⟩ : Fin 5000) k) * x1 (ix2 (⟨(y 1).val, (y 1).isLt⟩ : Fin 128) k) := by
  obtain ⟨p, q, rfl⟩ : ∃ (p : Fin 5000) (q : Fin 128), y = ix2 p q := ⟨y 0, y 1, eq_ix2 y⟩
  exact matmulBlock_apply x0 x1 p q

/-- The epilogue at any index of the block. -/
theorem epilogueBlock_at (a : Vec Ideal S5000x128 .f32) (b : Vec Ideal S128 .f32) (x : Vec Ideal S5000x128 .f32)
    (y : S5000x128.Idx) :
    k1_pay1 (F := Ideal) a b x y
      = x y + max (a y + b (ix1 (⟨(y 1).val, (y 1).isLt⟩ : Fin 128))) (Ideal.ofBits .f32 0x00000000#32) := by
  obtain ⟨p, q, rfl⟩ : ∃ (p : Fin 5000) (q : Fin 128), y = ix2 p q := ⟨y 0, y 1, eq_ix2 y⟩
  exact epilogueBlock_apply a b x p q

end Cert.KernelIdeal.Blocks

end
-- ==== Proof.LayerSpec.lean ====
/- The two dense pieces of a graph-convolution layer over 100000 nodes with 128 features, as functions of whole
   arrays on the extended reals, index by index.
   * `linear x w`: node i's transformed feature j is the sum over the input features k of x(i, k) · w(j, k) — the
     product of the node features with the TRANSPOSE of the weight matrix, written as one sum per entry.
   * `residualRelu x a b`: entry (i, j) is x(i, j) + max(a(i, j) + b(j), 0) — the aggregated messages plus the bias,
     clipped below at zero, added to the node's own features. The zero is kept as the float pattern's value; it is
     the same word on both sides of every equation below and is never evaluated.
   Nothing here depends on a program. -/
import Idealize.ShloMosaic.PureOps.Ideal
import Idealize.ShloMosaic.Lib.ValueIdx

noncomputable section

open scoped BigOperators

open Idealize.ShloMosaic Idealize.ShloMosaic.ValueIdx

namespace Cert.LayerSpec

/-- Node features: 100000 nodes by 128 features. -/
abbrev Nodes : Shape := ⟨2, ![100000, 128]⟩
/-- The weight matrix: output feature by input feature. -/
abbrev Weights : Shape := ⟨2, ![128, 128]⟩
/-- One value per feature. -/
abbrev Feats : Shape := ⟨1, ![128]⟩

/-- The row of a node-feature index, as a number below 100000. -/
abbrev node (i : Nodes.Idx) : Fin 100000 := ⟨(i 0).val, (i 0).isLt⟩
/-- The feature of a node-feature index, as a number below 128. -/
abbrev feat (i : Nodes.Idx) : Fin 128 := ⟨(i 1).val, (i 1).isLt⟩

/-- x · wᵀ, entry by entry: the sum over the input features k of x(i, k) · w(j, k). -/
def linear (x : FVec Ideal Nodes .f32) (w : FVec Ideal Weights .f32) : FVec Ideal Nodes .f32 :=
  fun i => ∑ k : Fin 128, x (ix2 (node i) k) * w (ix2 (feat i) k)

theorem linear_apply (x : FVec Ideal Nodes .f32) (w : FVec Ideal Weights .f32) (p : Fin 100000) (q : Fin 128) :
    linear x w (ix2 p q) = ∑ k : Fin 128, x (ix2 p k) * w (ix2 q k) := rfl

/-- x + max(a + b, 0), the bias b read at the entry's feature. -/
def residualRelu (x a : FVec Ideal Nodes .f32) (b : FVec Ideal Feats .f32) : FVec Ideal Nodes .f32 :=
  fun i => x i + max (a i + b (ix1 (feat i))) (Ideal.ofBits .f32 0x00000000#32)

theorem residual_apply (x a : FVec Ideal Nodes .f32) (b : FVec Ideal Feats .f32) (p : Fin 100000) (q : Fin 128) :
    residualRelu x a b (ix2 p q) = x (ix2 p q) + max (a (ix2 p q) + b (ix1 q)) (Ideal.ofBits .f32 0x00000000#32) := rfl

end Cert.LayerSpec

end
-- ==== Proof.LinearArray.lean ====
/- The first kernel's result array. The grid has 20 points; point t takes rows 5000·t … 5000·t + 4999 of the node
   features and the whole weight matrix, and writes the same rows of the result. Entry (p, q) of what it writes is
   the sum over k of x(5000·t + p, k) · w(q, k): row 5000·t + p of x · wᵀ. The 20 row blocks tile the 100000 rows,
   so the array ends holding x · wᵀ of the arrays the kernel was entered with — whatever those are. -/
import proofs.«133759_j31138512896565_1_alg».proof.Proof.Gen.KernelIdeal.Frame
import proofs.«133759_j31138512896565_1_alg».proof.Proof.BlockPayloads
import proofs.«133759_j31138512896565_1_alg».proof.Proof.LayerSpec

set_option maxRecDepth 16384

noncomputable section

open scoped BigOperators

open Idealize.ShloMosaic Idealize.ShloMosaic.TcCoe Idealize.ShloMosaic.ValueIdx Idealize.SL.Sem
open Cert.KernelIdeal Cert.KernelIdeal.Gen Cert.LayerSpec

namespace Cert.KernelIdeal.Arrays

variable (V : (c : Dev nD) → (b : Ref sig .tc) → Buf (Elt Ideal) ((c : Thread nD τ).loc b))

theorem zeros2 : (![0, 0] : Fin 2 → Nat) = fun _ => 0 := funext fun a => by fin_cases a <;> rfl

/-- Where each window's block sits at grid point t: the node-feature block and the result block at row block t, the
    weight matrix whole. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is rows 5000·t … of x · wᵀ. -/
theorem flushed_linear (c : Dev nD) (t : Fin cfg0.N) :
    (dat0 (F := Ideal) V c).flushed 2 t
      = ((cfg0.win 2).blk t).view.read (Elt Ideal) (linear (V c main_arg0) (V c main_arg2)) := by
  show (cfg0.win 2).cut (grid0.coords t) ((dat0 V c).after 2 t) = _
  rw [after0_2]
  unfold out0_2
  rw [View.canon_unit_zero zeros2]
  simp only [View.ld_unit_zero (S := S5000x128) zeros2, View.ld_unit_zero (S := S128x128) zeros2]
  obtain ⟨e00, e01, e10, e11, e20, e21⟩ := blockIndex0 t
  funext j
  show k0_pay1 (iblk0 V c 0 t) (iblk0 V c 1 t) j
      = linear (V c main_arg0) (V c main_arg2) (((cfg0.win 2).blk t).view.emb j)
  refine (Blocks.matmulBlock_at (iblk0 V c 0 t) (iblk0 V c 1 t) j).trans ?_
  unfold linear
  refine Finset.sum_congr rfl fun k _ => ?_
  have hx : iblk0 V c 0 t (ix2 (⟨(j 0).val, (j 0).isLt⟩ : Fin 5000) k)
      = V c main_arg0 (ix2 (node (((cfg0.win 2).blk t).view.emb j)) k) := by
    show V c main_arg0 (((cfg0.win 0).blk t).view.emb (ix2 (⟨(j 0).val, (j 0).isLt⟩ : Fin 5000) k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : iblk0 V c 1 t (ix2 (⟨(j 1).val, (j 1).isLt⟩ : Fin 128) k)
      = V c main_arg2 (ix2 (feat (((cfg0.win 2).blk t).view.emb j)) k) := by
    show V c main_arg2 (((cfg0.win 1).blk t).view.emb (ix2 (⟨(j 1).val, (j 1).isLt⟩ : Fin 128) k)) = _
    refine congrArg (V c main_arg2) (funext fun a => Fin.ext ?_)
    match a with
    | ⟨0, _⟩ => show win0_1.index t (0 : Fin 2) * 128 + 1 * (j 1).val = win0_2.index t (1 : Fin 2) * 128 + 1 * (j 1).val; omega
    | ⟨1, _⟩ => show win0_1.index t (1 : Fin 2) * 128 + 1 * k.val = k.val; omega
  rw [hx, hw]

/-- An index of the result array is in point t's block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v7).slice (win0_2.rect t)).set ↔ _
  rw [View.set_slice_whole, Rect.mem_set_unit]
  exact Iff.rfl

/-- Every entry of the result array is in the block of the point its row falls in: row r is in block r / 5000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, e20, e21⟩ := blockIndex0 t
  have ht : t.val = (i 0).val / 5000 := rfl
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The first kernel leaves x · wᵀ of its entry contents in its result array. -/
theorem array_linear (c : Dev nD) :
    (dat0 (F := Ideal) V c).arrAt 2 cfg0.N = linear (V c main_arg0) (V c main_arg2) :=
  (dat0 V c).arrAt_eq_of_cover 2 _ (fun t _ => flushed_linear V c t) cover0

end Cert.KernelIdeal.Arrays

end
-- ==== Proof.ResidualArray.lean ====
/- The second kernel's result array. Its grid has 20 points as well; point t takes rows 5000·t … 5000·t + 4999 of the
   node features and of the aggregated messages, the whole bias, and writes the same rows of the result: entry
   (p, q) is x(5000·t + p, q) + max(a(5000·t + p, q) + b(q), 0). The row blocks tile the array, so it ends holding
   `residualRelu` of the arrays the kernel was entered with — whatever those are. -/
import proofs.«133759_j31138512896565_1_alg».proof.Proof.Gen.KernelIdeal.Frame
import proofs.«133759_j31138512896565_1_alg».proof.Proof.BlockPayloads
import proofs.«133759_j31138512896565_1_alg».proof.Proof.LayerSpec

set_option maxRecDepth 16384

noncomputable section

open Idealize.ShloMosaic Idealize.ShloMosaic.TcCoe Idealize.ShloMosaic.ValueIdx Idealize.SL.Sem
open Cert.KernelIdeal Cert.KernelIdeal.Gen Cert.LayerSpec

namespace Cert.KernelIdeal.Arrays

variable (V : (c : Dev nD) → (b : Ref sig .tc) → Buf (Elt Ideal) ((c : Thread nD τ).loc b))

theorem zeros2' : (![0, 0] : Fin 2 → Nat) = fun _ => 0 := funext fun a => by fin_cases a <;> rfl
theorem zeros1 : (![0] : Fin 1 → Nat) = fun _ => 0 := funext fun a => by fin_cases a <;> rfl

/-- Where each window's block sits at grid point t: the node features, the aggregated messages and the result at
    row block t, the bias whole. -/
theorem blockIndex1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What point t writes back is rows 5000·t … of the residualRelu epilogue of the entry arrays. -/
theorem flushed_residual (c : Dev nD) (t : Fin cfg1.N) :
    (dat1 (F := Ideal) V c).flushed 3 t
      = ((cfg1.win 3).blk t).view.read (Elt Ideal) (residualRelu (V c main_arg0) (V c main_v43) (V c main_arg3)) := by
  show (cfg1.win 3).cut (grid1.coords t) ((dat1 V c).after 3 t) = _
  rw [after1_3]
  unfold out1_3
  rw [View.canon_unit_zero zeros2']
  simp only [View.ld_unit_zero (S := S5000x128) zeros2', View.ld_unit_zero (S := S128) zeros1]
  obtain ⟨e00, e01, e10, e11, e20, e30, e31⟩ := blockIndex1 t
  funext j
  show k1_pay1 (iblk1 V c 1 t) (iblk1 V c 2 t) (iblk1 V c 0 t) j
      = residualRelu (V c main_arg0) (V c main_v43) (V c main_arg3) (((cfg1.win 3).blk t).view.emb j)
  refine (Blocks.epilogueBlock_at (iblk1 V c 1 t) (iblk1 V c 2 t) (iblk1 V c 0 t) j).trans ?_
  unfold residualRelu
  have hx : iblk1 V c 0 t j = V c main_arg0 (((cfg1.win 3).blk t).view.emb j) := by
    show V c main_arg0 (((cfg1.win 0).blk t).view.emb j) = _
    refine congrArg (V c main_arg0) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  have ha : iblk1 V c 1 t j = V c main_v43 (((cfg1.win 3).blk t).view.emb j) := by
    show V c main_v43 (((cfg1.win 1).blk t).view.emb j) = _
    refine congrArg (V c main_v43) (funext fun a => Fin.ext ?_)
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 128 + 1 * (j 1).val = win1_3.index t (1 : Fin 2) * 128 + 1 * (j 1).val; omega
  have hb : iblk1 V c 2 t (ix1 (⟨(j 1).val, (j 1).isLt⟩ : Fin 128))
      = V c main_arg3 (ix1 (feat (((cfg1.win 3).blk t).view.emb j))) := by
    show V c main_arg3 (((cfg1.win 2).blk t).view.emb (ix1 (⟨(j 1).val, (j 1).isLt⟩ : Fin 128))) = _
    refine congrArg (V c main_arg3) (funext fun a => Fin.ext ?_)
    match a with
    | ⟨0, _⟩ => show win1_2.index t (0 : Fin 1) * 128 + 1 * (j 1).val = win1_3.index t (1 : Fin 2) * 128 + 1 * (j 1).val; omega
  rw [hx, ha, hb]

/-- An index of the result array is in point t's block iff each coordinate is in the block's range on its axis. -/
theorem mem_block1 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v44).slice (win1_3.rect t)).set ↔ _
  rw [View.set_slice_whole, Rect.mem_set_unit]
  exact Iff.rfl

/-- Every entry of the result array is in the block of the point its row falls in: row r is in block r / 5000. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, -, e30, e31⟩ := blockIndex1 t
  have ht : t.val = (i 0).val / 5000 := rfl
  refine ⟨t, flush1_3 t, ?_⟩
  rw [mem_block1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The second kernel leaves the residualRelu epilogue of its entry contents in its result array. -/
theorem array_residual (c : Dev nD) :
    (dat1 (F := Ideal) V c).arrAt 3 cfg1.N = residualRelu (V c main_arg0) (V c main_v43) (V c main_arg3) :=
  (dat1 V c).arrAt_eq_of_cover 3 _ (fun t _ => flushed_residual V c t) cover1

end Cert.KernelIdeal.Arrays

end
-- ==== Proof.Aggregation.lean ====
/- The message-passing part of the layer, as ONE function of the transformed node features and of the two
   endpoint lists — the host operations both programs apply between the dense product and the epilogue, named
   piece by piece and never opened.
   * The 600000 edges are followed by one self loop per node: `sources e` and `targets e` are the edge list's two
     rows, each followed by 0, 1, …, 99999 (700000 entries each).
   * An endpoint used to look a node up is first wrapped: a negative number has 100000 added.
   * `degree t` counts, per node, the entries of the target list equal to it (a scatter-add of ones into zeros);
     `invSqrtDegree t` is its inverse square root where the degree is positive and zero elsewhere.
   * `edgeWeight s t` is, per entry, the product of the two endpoints' inverse-root degrees.
   * `aggregate h s t` adds, into the target's row of an all-zero array, the source's row of h times the entry's weight.
   The same word for zero and for one appears wherever the programs print them; neither is evaluated. -/
import proofs.«133759_j31138512896565_1_alg».proof.Proof.Gen.KernelIdeal

noncomputable section

open Idealize.ShloMosaic Cert.KernelIdeal Cert.KernelIdeal.Gen

namespace Cert.KernelIdeal.Agg

variable {F : FTy → Type} [FloatOps F]

/-- The edge list: two rows of 600000 node numbers. -/
abbrev EdgeList (F : FTy → Type) [FloatOps F] := (⟨S2x600000, .i32⟩ : BufTy).Contents (Elt F)
/-- One endpoint per edge and per self loop. -/
abbrev Endpoints (F : FTy → Type) [FloatOps F] := (⟨S700000, .i32⟩ : BufTy).Contents (Elt F)
/-- One value per node. -/
abbrev PerNode (F : FTy → Type) [FloatOps F] := (⟨S100000, .f32⟩ : BufTy).Contents (Elt F)
/-- One value per edge and per self loop. -/
abbrev PerEdge (F : FTy → Type) [FloatOps F] := (⟨S700000, .f32⟩ : BufTy).Contents (Elt F)
/-- Node features. -/
abbrev NodeFeats (F : FTy → Type) [FloatOps F] := (⟨S100000x128, .f32⟩ : BufTy).Contents (Elt F)

/-- Row 0 of the edge list, then the self loops' nodes 0 … 99999. -/
def sources (e : EdgeList F) : Endpoints F :=
  concatenate S700000 0 [⟨S600000, (shapeCast _ (extractStridedSlice S1x600000 ![0, 0] e slices_S2x600000_S1x600000_0_0) shapeCasts_S1x600000_S600000)⟩, ⟨S100000, (iotaInDim S100000 32 0)⟩] concatenates_S600000_S100000_S700000_d0

/-- Row 1 of the edge list, then the self loops' nodes 0 … 99999. -/
def targets (e : EdgeList F) : Endpoints F :=
  concatenate S700000 0 [⟨S600000, (shapeCast _ (extractStridedSlice S1x600000 ![1, 0] e slices_S2x600000_S1x600000_1_0) shapeCasts_S1x600000_S600000)⟩, ⟨S100000, (iotaInDim S100000 32 0)⟩] concatenates_S600000_S100000_S700000_d0

/-- A negative endpoint has the number of nodes added before it is used to look a node up. -/
def wrapped (v : Endpoints F) : Endpoints F :=
  select (cmpi .slt v (broadcastInDim S700000 ![] bcast_S_S700000 (constantI S_ 32 0#32)))
    (addi v (broadcastInDim S700000 ![] bcast_S_S700000 (constantI S_ 32 100000#32))) v

/-- Per node, how many entries of the target list name it: ones added into zeros. -/
def degree (t : Endpoints F) : PerNode F :=
  Host.scatterAdd (F := F) scatter_S100000_S700000x1_S700000_n_0_0_1
    (broadcastInDim S100000 ![] bcast_S_S100000 (constant (F := F) S_ .f32 0x00000000#32))
    (broadcastInDim S700000x1 ![0] bcast_S700000_S700000x1_0 t)
    (broadcastInDim S700000 ![] bcast_S_S700000 (constant (F := F) S_ .f32 0x3F800000#32))

/-- The degree's inverse square root where the degree is positive, zero elsewhere. -/
def invSqrtDegree (t : Endpoints F) : PerNode F :=
  select (cmpf (F := F) .ogt (degree t) (broadcastInDim S100000 ![] bcast_S_S100000 (constant (F := F) S_ .f32 0x00000000#32)))
    (Host.rsqrt (F := F) (degree t))
    (broadcastInDim S100000 ![] bcast_S_S100000 (id (constant (F := F) S_ .f32 0x00000000#32)))

/-- Per entry, the product of its two endpoints' inverse-root degrees. -/
def edgeWeight (s t : Endpoints F) : PerEdge F :=
  mulf (F := F)
    (Host.gather gather_S100000_S700000x1_S700000_n_0_n_n_0_1_1 (invSqrtDegree t)
      (broadcastInDim S700000x1 ![0] bcast_S700000_S700000x1_0 (wrapped (F := F) s)))
    (Host.gather gather_S100000_S700000x1_S700000_n_0_n_n_0_1_1 (invSqrtDegree t)
      (broadcastInDim S700000x1 ![0] bcast_S700000_S700000x1_0 (wrapped (F := F) t)))

/-- Into an all-zero array, each entry adds the source's row of h, times the entry's weight, to the target's row. -/
def aggregate (h : NodeFeats F) (s t : Endpoints F) : NodeFeats F :=
  Host.scatterAdd (F := F) scatter_S100000x128_S700000x1_S700000x128_1_0_0_1
    (broadcastInDim S100000x128 ![] bcast_S_S100000x128 (constant (F := F) S_ .f32 0x00000000#32))
    (broadcastInDim S700000x1 ![0] bcast_S700000_S700000x1_0 t)
    (mulf (F := F)
      (Host.gather gather_S100000x128_S700000x1_S700000x128_1_0_n_n_0_1_1128 h
        (broadcastInDim S700000x1 ![0] bcast_S700000_S700000x1_0 (wrapped (F := F) s)))
      (broadcastInDim S700000x128 ![0, 1] bcast_S700000x1_S700000x128_0_1
        (broadcastInDim S700000x1 ![0] bcast_S700000_S700000x1_0 (edgeWeight s t))))

end Cert.KernelIdeal.Agg

end
-- ==== Proof.Layer.lean ====
/- The whole layer as ONE function of the four arrays: with h = x · wᵀ, the result is
   x + max(aggregate(h over the edge list's endpoints with self loops) + b, 0). Both programs are shown to end with
   this value in their result buffers. -/
import proofs.«133759_j31138512896565_1_alg».proof.Proof.LayerSpec
import proofs.«133759_j31138512896565_1_alg».proof.Proof.Aggregation

noncomputable section

open Idealize.ShloMosaic Cert.LayerSpec

namespace Cert.Layer

/-- Node features x, edge list e, weights w, bias b ↦ x + max(aggregate(x · wᵀ, e) + b, 0), on the extended reals. -/
def layer (x : FVec Ideal Nodes .f32) (e : Cert.KernelIdeal.Agg.EdgeList Ideal) (w : FVec Ideal Weights .f32)
    (b : FVec Ideal Feats .f32) : FVec Ideal Nodes .f32 :=
  residualRelu x
    (Cert.KernelIdeal.Agg.aggregate (F := Ideal) (linear x w)
      (Cert.KernelIdeal.Agg.sources (F := Ideal) e) (Cert.KernelIdeal.Agg.targets (F := Ideal) e))
    b

end Cert.Layer

end
-- ==== Proof.KernelRun.lean ====
/- The kernel program's run, with its result. @main is six segments: a stretch of host operations (the endpoint
   lists), the first kernel (the dense product), three stretches of host operations (degrees, weights and the weighted
   scatter-add of gathered rows), the second kernel (the epilogue). The frame already names the buffer contents at every
   segment boundary; the last boundary's contents are what every buffer holds when @main returns. Read at the
   result buffer instead of only at the arguments, that gives the run's result: the second kernel's result array as
   the last boundary has it. -/
import proofs.«133759_j31138512896565_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, with the
    result buffer at the last segment boundary's contents and the four argument arrays as launched. -/
theorem run_result : θ_run defs (onTc (τ := τ) (main (F := F))) ⟨m, fun _ => 0, ρ⟩ (fun r => ∀ c : Dev nD,
      r.2.mem ((c.tc : Thread nD τ).loc main_v44) = W6 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v44 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.Run

end
-- ==== Proof.KernelValue.lean ====
/- What the kernel program's result buffer holds when @main returns, as one function of the four launch arrays on
   the extended reals. Walking the segment boundaries backwards from the last:
   * the second kernel's result array is `residualRelu` of the arrays it was entered with — the node features
     (as launched), the aggregated messages and the bias (as launched);
   * the aggregated messages are what the three host stretches between the kernels compute: `aggregate` of the first
     kernel's result array and of the two endpoint lists;
   * the first kernel's result array is `linear` of the node features and the weights as launched;
   * the endpoint lists are what the first host stretch computes from the edge list as launched, and the first
     kernel does not touch them.
   So the result is x + max(aggregate(x · wᵀ) + b, 0). -/
import proofs.«133759_j31138512896565_1_alg».proof.Proof.Gen.KernelIdeal.Frame
import proofs.«133759_j31138512896565_1_alg».proof.Proof.LinearArray
import proofs.«133759_j31138512896565_1_alg».proof.Proof.ResidualArray
import proofs.«133759_j31138512896565_1_alg».proof.Proof.Aggregation
import proofs.«133759_j31138512896565_1_alg».proof.Proof.Layer
import proofs.«133759_j31138512896565_1_alg».proof.Proof.KernelRun
import Idealize.ShloMosaic.Lib.StableHlo.Run

set_option maxRecDepth 16384

noncomputable section

open Idealize.ShloMosaic Idealize.ShloMosaic.TcCoe Idealize.ShloMosaic.StableHlo Idealize.SL.Sem
open Cert.KernelIdeal Cert.KernelIdeal.Gen Cert.LayerSpec

namespace Cert.KernelIdeal.Result

section Host

variable {F : FTy → Type} [FloatOps F] (W : Valuation τ sig (Elt F))

/-- The first host stretch leaves the source list — row 0 of the edge list, then the self loops — in its buffer. -/
theorem prefix_sources :
    StableHlo.after hostOps0 W (Proc.devRef .tc main_v3) = Agg.sources (F := F) (W (Proc.devRef .tc main_arg1)) := by
  dsimp only [hostOps0]
  after_results
  rfl

/-- The first host stretch leaves the target list — row 1 of the edge list, then the self loops — in its buffer. -/
theorem prefix_targets :
    StableHlo.after hostOps0 W (Proc.devRef .tc main_v6) = Agg.targets (F := F) (W (Proc.devRef .tc main_arg1)) := by
  dsimp only [hostOps0]
  after_results
  rfl

/-- The first host stretch writes neither the node features nor the weights. -/
theorem prefix_arg0 : StableHlo.after hostOps0 W (Proc.devRef .tc main_arg0) = W (Proc.devRef .tc main_arg0) := by
  dsimp only [hostOps0]
  after_results
theorem prefix_arg2 : StableHlo.after hostOps0 W (Proc.devRef .tc main_arg2) = W (Proc.devRef .tc main_arg2) := by
  dsimp only [hostOps0]
  after_results

/-- The three host stretches between the kernels leave, in the second kernel's operand, the aggregation of the first
    kernel's result array over the two endpoint lists. -/
theorem middle_aggregate :
    StableHlo.after hostOps1_2 (StableHlo.after hostOps1_1 (StableHlo.after hostOps1 W)) (Proc.devRef .tc main_v43)
      = Agg.aggregate (F := F) (W (Proc.devRef .tc main_v7)) (W (Proc.devRef .tc main_v3)) (W (Proc.devRef .tc main_v6)) := by
  dsimp only [hostOps1, hostOps1_1, hostOps1_2]
  after_results_simp
  rfl

end Host

variable (m : (ℓ : Loc nD τ sig) → Buf (Elt Ideal) ℓ) (ρ : Dev nD → PrngReg)

/-- The last segment boundary's contents at the result buffer: x + max(aggregate(x · wᵀ) + b, 0) of the launch
    arrays. -/
theorem result_eq (c : Dev nD) :
    W6 m ρ c (Proc.devRef .tc main_v44)
      = residualRelu (m ((c : Thread nD τ).loc main_arg0))
          (Agg.aggregate (F := Ideal)
            (linear (m ((c : Thread nD τ).loc main_arg0)) (m ((c : Thread nD τ).loc main_arg2)))
            (Agg.sources (F := Ideal) (m ((c : Thread nD τ).loc main_arg1)))
            (Agg.targets (F := Ideal) (m ((c : Thread nD τ).loc main_arg1))))
          (m ((c : Thread nD τ).loc main_arg3)) := by
  -- the second kernel's entry contents at the two arguments it reads
  have hx5 : V5 m ρ c main_arg0 = m ((c : Thread nD τ).loc main_arg0) :=
    ((W6_arr m ρ c 0).trans (((dat1 (V5 m ρ) c).arrAt_in 0 rfl _).trans (A_eq1 (V5 m ρ) c 0))).symm.trans (W6_main_arg0 m ρ c)
  have hb5 : V5 m ρ c main_arg3 = m ((c : Thread nD τ).loc main_arg3) :=
    ((W6_arr m ρ c 2).trans (((dat1 (V5 m ρ) c).arrAt_in 2 rfl _).trans (A_eq1 (V5 m ρ) c 2))).symm.trans (W6_main_arg3 m ρ c)
  -- the first kernel's entry contents at its two arguments
  have hx1 : V1 m ρ c main_arg0 = m ((c : Thread nD τ).loc main_arg0) := prefix_arg0 (W0 m ρ c)
  have hw1 : V1 m ρ c main_arg2 = m ((c : Thread nD τ).loc main_arg2) := prefix_arg2 (W0 m ρ c)
  -- the first kernel's exit contents: its result array, and the endpoint lists it does not touch
  have hh : W2 m ρ c (Proc.devRef .tc main_v7)
      = linear (m ((c : Thread nD τ).loc main_arg0)) (m ((c : Thread nD τ).loc main_arg2)) :=
    (W2_arr m ρ c 2).trans ((Arrays.array_linear (V1 m ρ) c).trans (by rw [hx1, hw1]))
  have hs : W2 m ρ c (Proc.devRef .tc main_v3) = Agg.sources (F := Ideal) (m ((c : Thread nD τ).loc main_arg1)) :=
    (W2_of_ne m ρ c main_v3 (by decide)).trans (prefix_sources (W0 m ρ c))
  have ht : W2 m ρ c (Proc.devRef .tc main_v6) = Agg.targets (F := Ideal) (m ((c : Thread nD τ).loc main_arg1)) :=
    (W2_of_ne m ρ c main_v6 (by decide)).trans (prefix_targets (W0 m ρ c))
  -- the second kernel's entry contents at the aggregated messages
  have ha : V5 m ρ c main_v43
      = Agg.aggregate (F := Ideal)
          (linear (m ((c : Thread nD τ).loc main_arg0)) (m ((c : Thread nD τ).loc main_arg2)))
          (Agg.sources (F := Ideal) (m ((c : Thread nD τ).loc main_arg1)))
          (Agg.targets (F := Ideal) (m ((c : Thread nD τ).loc main_arg1))) :=
    (middle_aggregate (W2 m ρ c)).trans (by rw [hh, hs, ht])
  exact (W6_arr m ρ c 3).trans ((Arrays.array_residual (V5 m ρ) c).trans (by rw [hx5, ha, hb5]))

/-- The kernel program's run: the result buffer ends at the layer's value of the launch arrays, the arguments unchanged. -/
theorem run : θ_run (defs (F := Ideal)) (onTc (τ := τ) (main (F := Ideal))) ⟨m, fun _ => 0, ρ⟩ (fun r => ∀ c : Dev nD,
      r.2.mem ((c.tc : Thread nD τ).loc main_v44)
        = Cert.Layer.layer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (Cert.KernelIdeal.Run.run_result (F := Ideal) m ρ)

end Cert.KernelIdeal.Result

end
-- ==== Proof.LibBroadcastReads.lean ====
/- Small layout reads at coordinates, for any extents and any element type: a column `[a, 1]` broadcast along the lanes
   to `[a, b]` (a vector `broadcast` and a host `broadcast_in_dim` with dims [0, 1]), a row `[1, b]` broadcast down the
   rows by a host `broadcast_in_dim` with dims [0, 1], a vector `[a]` made a column `[a, 1]` (dims [0]) and a vector `[b]`
   made a row `[1, b]` (dims [1]). Each reads the operand at the coordinate that survives; the unit axis reads at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.BroadcastReads

variable {α : Type}

/-- A vector broadcast of a column `[a, 1]` to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a column `[a, 1]` to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a row `[1, b]` to `[a, b]` reads, at `(p, c)`, the row at column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` by a host broadcast (dims [0]) reads, at `(p, z)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A vector `[b]` made a row `[1, b]` by a host broadcast (dims [1]) reads, at `(z, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (z : Fin 1) (c : Fin b) :
    broadcastInDim ⟨2, ![1, b]⟩ ![1] h v (ix2 z c) = v (ix1 c) := by
  refine broadcastInDim_apply _ h v (ix2 z c) (ix1 c) fun ax => ?_
  match ax with
  | ⟨0, _⟩ =>
    show c.val = if b = 1 then 0 else c.val
    split
    · have := c.isLt; omega
    · rfl

end Cert.Lib.BroadcastReads

end
-- ==== Proof.ReferenceValue.lean ====
/- The reference program's result, as the same function of the four launch arrays. Its run gives the result as
   the composed term of its host operations; three things identify that term with the layer's value:
   * its dense product — the node features times the TRANSPOSED weights, contracted feature against feature — is, entry
     by entry, the sum over k of x(i, k) · w(j, k): `linear`;
   * what it does between the product and the epilogue is, operation for operation, `aggregate` over `sources` and
     `targets` of the edge list (the two programs print the same operations there, each in its own vocabulary);
   * its epilogue — the bias made a row and broadcast down the nodes, added, clipped at zero from below, added to
     the node features — is `residualRelu`, entry by entry. -/
import proofs.«133759_j31138512896565_1_alg».proof.Proof.RefRunPatched
import proofs.«133759_j31138512896565_1_alg».proof.Proof.Layer
import proofs.«133759_j31138512896565_1_alg».proof.Proof.LibDotReads
import proofs.«133759_j31138512896565_1_alg».proof.Proof.LibBroadcastReads
import Idealize.ShloMosaic.Lib.ValueLayout

set_option maxRecDepth 16384

noncomputable section

open scoped BigOperators

open Idealize.ShloMosaic Idealize.ShloMosaic.TcCoe Idealize.ShloMosaic.ValueIdx Idealize.SL.Sem
open Cert.ReferenceIdeal Cert.ReferenceIdeal.Gen Cert.LayerSpec

namespace Cert.ReferenceIdeal.RefValue

/-- The reference's dense product is x · wᵀ, one sum per entry. -/
theorem dot_eq (x : FVec Ideal S100000x128 .f32) (w : FVec Ideal S128x128 .f32) :
    Host.dotGeneral (F := Ideal) dot_S100000x128_S128x128_S100000x128_1_0_0_1_n_n none x
      (transpose S128x128 [1, 0] w transposes_S128x128_S128x128_1_0) = linear x w := by
  funext i
  obtain ⟨p, q, rfl⟩ : ∃ (p : Fin 100000) (q : Fin 128), i = ix2 p q := ⟨i 0, i 1, eq_ix2 i⟩
  rw [linear_apply]
  refine (Cert.Lib.DotReads.plain_dotGeneral_apply (M := 100000) (K := 128) (N := 128) _ x
    (transpose S128x128 [1, 0] w transposes_S128x128_S128x128_1_0) p q).trans ?_
  refine Finset.sum_congr rfl fun k _ => ?_
  rw [transpose_ix2_apply]

/-- The reference's epilogue is x + max(a + b, 0), the bias read at the entry's feature. -/
theorem epilogue_eq (x a : FVec Ideal S100000x128 .f32) (b : FVec Ideal S128 .f32) :
    addf x (maximumf (addf a (broadcastInDim S100000x128 ![0, 1] bcast_S1x128_S100000x128_0_1
        (broadcastInDim S1x128 ![1] bcast_S128_S1x128_1 b)))
      (broadcastInDim S100000x128 ![] bcast_S_S100000x128 (constant (F := Ideal) S_ .f32 0x00000000#32)))
      = residualRelu x a b := by
  funext i
  obtain ⟨p, q, rfl⟩ : ∃ (p : Fin 100000) (q : Fin 128), i = ix2 p q := ⟨i 0, i 1, eq_ix2 i⟩
  rw [residual_apply]
  show x (ix2 p q) + max (a (ix2 p q) + broadcastInDim S100000x128 ![0, 1] bcast_S1x128_S100000x128_0_1
        (broadcastInDim S1x128 ![1] bcast_S128_S1x128_1 b) (ix2 p q)) (Ideal.ofBits .f32 0x00000000#32) = _
  rw [Cert.Lib.BroadcastReads.broadcastInDim_1b_ab_apply, Cert.Lib.BroadcastReads.broadcastInDim_b_1b_apply]

/-- The reference run's result term is the layer's value of the launch arrays. -/
theorem result_eq (m : (ℓ : Loc nD τ sig) → Buf (Elt Ideal) ℓ) (c : Dev nD) :
    Cert.ReferenceIdeal.ValueP.res_main_v49 (F := Ideal) m c
      = Cert.Layer.layer (m ((c.tc : Thread nD τ).loc main_arg0)) (m ((c.tc : Thread nD τ).loc main_arg1))
          (m ((c.tc : Thread nD τ).loc main_arg2)) (m ((c.tc : Thread nD τ).loc main_arg3)) := by
  unfold Cert.Layer.layer
  rw [← epilogue_eq, ← dot_eq]
  unfold Cert.ReferenceIdeal.ValueP.res_main_v49 Cert.KernelIdeal.Agg.aggregate Cert.KernelIdeal.Agg.edgeWeight
    Cert.KernelIdeal.Agg.invSqrtDegree Cert.KernelIdeal.Agg.degree Cert.KernelIdeal.Agg.wrapped
    Cert.KernelIdeal.Agg.sources Cert.KernelIdeal.Agg.targets
  rfl

end Cert.ReferenceIdeal.RefValue

end
-- ==== Proof.lean ====
/- A graph-convolution layer over 100000 nodes with 128 features, 600000 edges and one self loop per node:
       out = x + max(A(x · wᵀ) + b, 0),
   where A adds, into each target node's row, the source node's row scaled by the inverse square roots of the two
   endpoints' degrees (zero where a degree is zero). The kernel program computes x · wᵀ in a first kernel, block of
   5000 nodes by block, applies A with host operations, and computes the epilogue in a second kernel, again block by
   block; the reference applies host operations throughout. On the extended reals the two agree for every input:
   * the first kernel's matrix product (both operands narrowed to a shorter float format, which is the identity
     here, and contracted feature against feature) and the reference's product with the transposed weights are both
     the sum over k of x(i, k) · w(j, k), entry by entry — no rearrangement of a sum is needed, so no finiteness of the
     inputs is used;
   * the operations of A are the same in the two programs, applied to the same edge list and to equal products,
     and are carried as one function that is never opened;
   * the second kernel's block epilogue and the reference's whole-array epilogue are both x + max(a + b, 0), entry
     by entry.
   The three frames: the two kernel programs' are the generated frame certificates; the reference's is its run
   with the result dropped. The idealization rewrote no operation, so there is nothing to preserve. -/
import proofs.«133759_j31138512896565_1_alg».proof.Defs
import proofs.«133759_j31138512896565_1_alg».proof.Proof.Gen.Kernel
import proofs.«133759_j31138512896565_1_alg».proof.Proof.Gen.Kernel.Frame
import proofs.«133759_j31138512896565_1_alg».proof.Proof.Gen.KernelIdeal
import proofs.«133759_j31138512896565_1_alg».proof.Proof.Gen.KernelIdeal.Frame
import proofs.«133759_j31138512896565_1_alg».proof.Proof.Gen.ReferenceIdeal
import proofs.«133759_j31138512896565_1_alg».proof.Proof.Gen.Pre_finite_inputs
import proofs.«133759_j31138512896565_1_alg».proof.Proof.RefRunPatched
import proofs.«133759_j31138512896565_1_alg».proof.Proof.KernelValue
import proofs.«133759_j31138512896565_1_alg».proof.Proof.ReferenceValue

noncomputable section

namespace Cert.Proof

open Idealize.ShloMosaic Idealize.ShloMosaic.TcCoe Idealize.SL.Sem

/-- The word-level kernel program terminates, faults nowhere and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the four arguments both idealized programs end with the layer's value of those
    arguments in their result buffers, and with the arguments unchanged. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
